-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x2048x128.size a
  hwx0_3 : ∀ i : grid0.Coords, EltTy.bits .f32 = 32 ∨ (Rect.block (s := S16x2048x128) S1x512x128.size (cc0_transform_3 i) (hinb0_3 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S2048x2048 : Shape := ⟨2, ![2048, 2048]⟩
abbrev S16x2048 : Shape := ⟨2, ![16, 2048]⟩
abbrev S16x2048x1 : Shape := ⟨3, ![16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S2048x2048, .i32⟩
  | .hbm, ⟨8, _⟩ => ⟨S_, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S16x2048x2048, .i1⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S2048x2048_S16x2048x2048_1_2 : S2048x2048.BroadcastsInDim S16x2048x2048 (![1, 2] : Fin 2 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Spec.lean ====
/-
  What both programs compute, as one function of the three argument arrays on the extended reals.

  Queries, keys and values are arrays q, k, v : [16, 2048, 128].  For a batch b and a query row R, the score of key j is
  the inner product ∑ₑ q(b,R,e)·k(b,j,e) times the reciprocal of the scaling divisor, kept where j ≤ R and replaced by the
  zero word above the diagonal (a multiplicative lower-triangular mask: the masked entries still enter the softmax).
  The row is shifted by its maximum (taken from -∞), exponentiated, divided by its sum, and the weights so obtained
  combine the rows of v:  out(b,R,d) = ∑ⱼ w(b,R,j)·v(b,j,d).

  The row-level functions are stated over an abstract row `s : Fin 2048 → EReal`, so that each program only has to
  show which row of scores it feeds in.  The two words that are the same on both sides (-∞ and 0) are kept as words.
  The one law used: dividing by the real D = 11863283/2²⁰ (the reference's divisor word) is multiplying by 1/D on every
  extended real, and the kernel's named reciprocal denotes exactly 1/D = 1048576/11863283.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of the three argument arrays and of the result. -/
abbrev A3 : Shape := ⟨3, ![16, 2048, 128]⟩

/-- The word of -∞, the start of a row's maximum. -/
abbrev negInfW : EReal := Ideal.ofBits .f32 0xFF800000#32
/-- The word of 0, the value of a masked score. -/
abbrev zeroW : EReal := Ideal.ofBits .f32 0x00000000#32

/-- The reciprocal of the scaling divisor: 1/D for D = 11863283/2²⁰. -/
def invD : EReal := ((1048576 / 11863283 : ℝ) : EReal)

/-- A row's maximum, from -∞. -/
def rowMax (s : Fin 2048 → EReal) : EReal := max negInfW ((Finset.univ : Finset (Fin 2048)).fold max negInfW s)

/-- The row shifted by its maximum and exponentiated. -/
def rowExp (s : Fin 2048 → EReal) (j : Fin 2048) : EReal := Ideal.exp (s j - rowMax s)

/-- The softmax weight of entry `j` of a row. -/
def rowWeight (s : Fin 2048 → EReal) (j : Fin 2048) : EReal := Ideal.div (rowExp s j) (∑ j' : Fin 2048, rowExp s j')

/-- The weights of a row of scores combined with a column of values. -/
def rowOut (s v : Fin 2048 → EReal) : EReal := ∑ j : Fin 2048, rowWeight s j * v j

/-- The inner product of query row `R` and key row `j` of batch `b`. -/
def qk (q k : A3.Idx → EReal) (b : Fin 16) (R j : Fin 2048) : EReal := ∑ e : Fin 128, q (ix3 b R e) * k (ix3 b j e)

/-- The masked, scaled score: kept on and below the diagonal, the zero word above it. -/
def score (q k : A3.Idx → EReal) (b : Fin 16) (R j : Fin 2048) : EReal :=
  if j.val ≤ R.val then qk q k b R j * invD else zeroW

/-- The result at batch `b`, query row `R`, feature `d`. -/
def attnAt (q k v : A3.Idx → EReal) (b : Fin 16) (R : Fin 2048) (d : Fin 128) : EReal :=
  rowOut (score q k b R) (fun j => v (ix3 b j d))

/-- The result array. -/
def attn (q k v : A3.Idx → EReal) : A3.Idx → EReal := fun i => attnAt q k v (i 0) (i 1) (i 2)

theorem attn_ix3 (q k v : A3.Idx → EReal) (b : Fin 16) (R : Fin 2048) (d : Fin 128) :
    attn q k v (ix3 b R d) = attnAt q k v b R d := rfl

/-- The reference's divisor word denotes the real 11863283/2²⁰. -/
theorem ofBits_divisor : Ideal.ofBits .f32 0x413504F3#32 = ((11863283 / 1048576 : ℝ) : EReal) := by
  simp [Ideal.ofBits, Ideal.ieee, -EReal.coe_mul]; norm_num

/-- Dividing by the divisor word is multiplying by its reciprocal, on every extended real. -/
theorem div_divisor (x : EReal) : Ideal.div x (Ideal.ofBits .f32 0x413504F3#32) = x * invD := by
  rw [ofBits_divisor, Ideal.div_coe (by norm_num : (11863283 / 1048576 : ℝ) ≠ 0)]
  unfold invD
  norm_num

/-- The sum of a row from the zero word is the sum. -/
theorem zeroW_add (x : EReal) : zeroW + x = x := by
  show Ideal.ofBits .f32 0x00000000#32 + x = x
  rw [Ideal.ofBits_zero_f32, zero_add]

end Cert.Attn

end
-- ==== Proof.RefValue.lean ====
/-
  The reference's result, one host operation at a time, is the attention function of the three arguments.
-/
import proofs.«145812_j34016140984994_1_alg».proof.Proof.RefRead
import proofs.«145812_j34016140984994_1_alg».proof.Proof.Spec

noncomputable section

namespace Cert.ReferenceIdeal.RefValue

open Cert.ReferenceIdeal Cert.ReferenceIdeal.Gen Idealize.ShloMosaic Idealize.ShloMosaic.ValueIdx Cert.Attn
open Cert.ReferenceIdeal.ReadP

/-- The lower-triangular mask bit: for a row `R` and a column `j` below 2048, the signed comparison `R + 0 ≥ j` of
    their 32-bit words is the comparison of the naturals. -/
theorem ref_tril_bit (R j : Fin 2048) :
    IntOp.cmpi .sge (IntOp.addi (BitVec.ofNat 32 R.val) 0#32) (BitVec.ofNat 32 j.val)
      = if j.val ≤ R.val then 1#1 else 0#1 := by
  have hR := R.isLt
  have hj := j.isLt
  simp only [IntOp.cmpi, IntOp.addi, BitVec.add_zero, BitVec.sle, BitVec.toInt, BitVec.toNat_ofNat]
  have ej : j.val % 2 ^ 32 = j.val := Nat.mod_eq_of_lt (by omega)
  have eR : R.val % 2 ^ 32 = R.val := Nat.mod_eq_of_lt (by omega)
  rw [ej, eR, if_pos (by omega), if_pos (by omega)]
  by_cases h : j.val ≤ R.val
  · rw [if_pos h, decide_eq_true (by exact_mod_cast h)]; rfl
  · rw [if_neg h, decide_eq_false (by exact_mod_cast h)]; rfl

/-- The mask at (b, R, j): one on and below the diagonal, zero above it. -/
theorem ref_mask (b : Fin 16) (R j : Fin 2048) :
    val_main_call0_v5 (F := Ideal) (ix3 b R j) = if j.val ≤ R.val then 1#1 else 0#1 := by
  rw [val_main_call0_v5_apply, val_main_call0_v4_apply, val_main_call0_v2_apply, val_main_call0_v0_apply,
    val_main_call0_v1_apply, val_main_call0_c_apply, val_main_call0_v3_apply]
  exact ref_tril_bit R j

/-- The scaled inner product at (b, R, j). -/
theorem ref_v2 (q k : (⟨S16x2048x128, .f32⟩ : BufTy).Contents (Elt Ideal)) (b : Fin 16) (R j : Fin 2048) :
    val_main_v2 (F := Ideal) q k (ix3 b R j) = qk q k b R j * invD := by
  rw [val_main_v2_apply, Ideal.hostDivf_def, val_main_v1_apply, val_main_cst_apply, Ideal.ofBits_def, div_divisor,
    val_main_v0_apply]
  unfold qk
  refine congrArg (· * invD) (Finset.sum_congr rfl fun e _ => ?_)
  have hl : lidx_main_v0 (ix3 b R j) e = ix3 b R e :=
    funext fun a => Fin.ext (by match a with | ⟨0, _⟩ => rfl | ⟨1, _⟩ => rfl | ⟨2, _⟩ => rfl)
  have hr : ridx_main_v0 (ix3 b R j) e = ix3 b j e :=
    funext fun a => Fin.ext (by match a with | ⟨0, _⟩ => rfl | ⟨1, _⟩ => rfl | ⟨2, _⟩ => rfl)
  rw [hl, hr]

/-- The masked, scaled score at (b, R, j). -/
theorem ref_v3 (q k : (⟨S16x2048x128, .f32⟩ : BufTy).Contents (Elt Ideal)) (b : Fin 16) (R j : Fin 2048) :
    val_main_v3 (F := Ideal) q k (ix3 b R j) = score q k b R j := by
  rw [val_main_v3_apply, ref_mask, ref_v2, val_main_call0_v6_apply, val_main_call0_cst_apply, Ideal.ofBits_def]
  unfold score
  by_cases h : j.val ≤ R.val
  · rw [if_pos h, if_pos h]; exact select_one _ _
  · rw [if_neg h, if_neg h]; exact select_zero _ _

/-- The reduced index (b, R) with the column `k` put back is (b, R, k). -/
theorem ref_lift (h : S16x2048x2048.Reduces [2] S16x2048) (b : Fin 16) (R j : Fin 2048) :
    h.lift (ix2 b R) j = ix3 b R j := by
  funext c; apply Fin.ext
  match c with
  | ⟨0, _⟩ => rfl
  | ⟨1, _⟩ => rfl
  | ⟨2, _⟩ => rfl

/-- The row maximum the reduction takes, from -∞, at (b, R). -/
theorem ref_v4 (q k : (⟨S16x2048x128, .f32⟩ : BufTy).Contents (Elt Ideal)) (b : Fin 16) (R : Fin 2048) :
    val_main_v4 (F := Ideal) q k (ix2 b R)
      = (Finset.univ : Finset (Fin 2048)).fold max negInfW (score q k b R) := by
  have hr : S16x2048x2048.Reduces [2] S16x2048 := by decide
  unfold val_main_v4
  refine (Host.reduce_eq_fold_single (α := Ideal .f32) FloatOps.maximumf (val_main_v3 (F := Ideal) q k)
    (val_main_cst_0 (F := Ideal)) reducesTo_S16x2048x2048_S16x2048_d2 hr h_S_ (ix2 b R)).trans ?_
  have hf : (fun j : Fin 2048 => val_main_v3 (F := Ideal) q k (hr.lift (ix2 b R) j)) = score q k b R :=
    funext fun j => by rw [ref_lift hr b R j, ref_v3]
  exact congrArg (fun f => Finset.fold max negInfW f (Finset.univ : Finset (Fin 2048))) hf

/-- The row maximum at (b, R). -/
theorem ref_v6 (q k : (⟨S16x2048x128, .f32⟩ : BufTy).Contents (Elt Ideal)) (b : Fin 16) (R : Fin 2048) :
    val_main_v6 (F := Ideal) q k (ix2 b R) = rowMax (score q k b R) := by
  rw [val_main_v6_apply, Ideal.maximumf_def, val_main_v5_apply, val_main_cst_1_apply, Ideal.ofBits_def, ref_v4]
  rfl

/-- The shifted, exponentiated score at (b, R, j). -/
theorem ref_v10 (q k : (⟨S16x2048x128, .f32⟩ : BufTy).Contents (Elt Ideal)) (b : Fin 16) (R j : Fin 2048) :
    val_main_v10 (F := Ideal) q k (ix3 b R j) = rowExp (score q k b R) j := by
  have hi : idx_main_v7 (idx_main_v8 (ix3 b R j)) = ix2 b R :=
    funext fun a => Fin.ext (by match a with | ⟨0, _⟩ => rfl | ⟨1, _⟩ => rfl)
  rw [val_main_v10_apply, Ideal.hostUnary_exp_def, val_main_v9_apply, Ideal.subf_def, ref_v3, val_main_v8_apply,
    val_main_v7_apply, hi, ref_v6]
  rfl

/-- The row sum at (b, R). -/
theorem ref_v11 (q k : (⟨S16x2048x128, .f32⟩ : BufTy).Contents (Elt Ideal)) (b : Fin 16) (R : Fin 2048) :
    val_main_v11 (F := Ideal) q k (ix2 b R) = ∑ j : Fin 2048, rowExp (score q k b R) j := by
  rw [val_main_v11_apply, val_main_cst_2_apply, Ideal.ofBits_def, zeroW_add]
  refine Finset.sum_congr rfl fun j _ => ?_
  have hi : idx_main_v11 (ix2 b R) j = ix3 b R j :=
    funext fun a => Fin.ext (by match a with | ⟨0, _⟩ => rfl | ⟨1, _⟩ => rfl | ⟨2, _⟩ => rfl)
  rw [hi, ref_v10]

/-- The softmax weight at (b, R, j). -/
theorem ref_v14 (q k : (⟨S16x2048x128, .f32⟩ : BufTy).Contents (Elt Ideal)) (b : Fin 16) (R j : Fin 2048) :
    val_main_v14 (F := Ideal) q k (ix3 b R j) = rowWeight (score q k b R) j := by
  have hi : idx_main_v12 (idx_main_v13 (ix3 b R j)) = ix2 b R :=
    funext fun a => Fin.ext (by match a with | ⟨0, _⟩ => rfl | ⟨1, _⟩ => rfl)
  rw [val_main_v14_apply, Ideal.hostDivf_def, ref_v10, val_main_v13_apply, val_main_v12_apply, hi, ref_v11]
  rfl

/-- The last stage of the reference is the attention function of the three arguments, index by index. -/
theorem ref_eq (q k v : (⟨S16x2048x128, .f32⟩ : BufTy).Contents (Elt Ideal)) :
    Cert.ReferenceIdeal.ReadP.val_main_v15 (F := Ideal) q k v = Cert.Attn.attn q k v := by
  funext i
  obtain ⟨b, R, d, rfl⟩ : ∃ (b : Fin 16) (R : Fin 2048) (d : Fin 128), i = ix3 b R d := ⟨i 0, i 1, i 2, eq_ix3 i⟩
  rw [val_main_v15_apply, attn_ix3]
  unfold attnAt rowOut
  refine Finset.sum_congr rfl fun j _ => ?_
  have hl : lidx_main_v15 (ix3 b R d) j = ix3 b R j :=
    funext fun a => Fin.ext (by match a with | ⟨0, _⟩ => rfl | ⟨1, _⟩ => rfl | ⟨2, _⟩ => rfl)
  have hr : ridx_main_v15 (ix3 b R d) j = ix3 b j d :=
    funext fun a => Fin.ext (by match a with | ⟨0, _⟩ => rfl | ⟨1, _⟩ => rfl | ⟨2, _⟩ => rfl)
  rw [hl, hr, ref_v14]

end Cert.ReferenceIdeal.RefValue

end
-- ==== Proof.BlockPayload.lean ====
/-
  One grid point's block of the result, read at an index.

  At grid point (b, qi) the body holds a [1,512,128] block of queries x0, and the whole [1,2048,128] key and value slabs
  x1, x2 of batch b.  Its stored value at local row r and feature d is the softmax-weighted combination of the value
  rows: the scores of row r are the inner products with every key row, times the named reciprocal, masked where the
  key index exceeds the GLOBAL row qi·512 + r.

  The body is cut in three stages — the [512,2048] matrix of masked scores, the row-wise softmax of a matrix, and the
  product of the weights with the values — and each is read at an index on its own.
-/
import proofs.«145812_j34016140984994_1_alg».proof.Proof.Gen.KernelIdeal.Skeleton
import proofs.«145812_j34016140984994_1_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Idealize.ShloMosaic.PureOps.IdealRules

noncomputable section

namespace Cert.KernelIdeal.Block

open Cert.KernelIdeal Cert.KernelIdeal.Gen Idealize.ShloMosaic Idealize.ShloMosaic.ValueIdx Cert.Attn

/-! ## The three stages of the body -/

/-- The mask: entry (r, j) is set where the global row qi·512 + r is at least j (a signed comparison of words). -/
def maskV (i : grid0.Coords) : IVec S512x2048 1 :=
  cmpi .sge (addi (broadcast S512x2048 (Scalar.muli (BitVec.ofNat 32 (i 1).val) 512#32)) (iota .tc S512x2048 32 [0] iota_S512x2048_d0_w32))
    (iota .tc S512x2048 32 [1] iota_S512x2048_d1_w32)

/-- The matrix of inner products of the query block's rows with the key slab's rows. -/
def dotQK (x0 : Vec Ideal S1x512x128 .f32) (x1 : Vec Ideal S1x2048x128 .f32) : FVec Ideal S512x2048 .f32 :=
  matmul dot_S512x128_S128x2048_S512x2048_1_0_0_1_n_n none
    (truncf .bf16 (shapeCast S512x128 x0 shapeCasts_S1x512x128_S512x128) bitsLt_bf16_f32)
    (transpose S128x2048 [1, 0] (truncf .bf16 (shapeCast S2048x128 x1 shapeCasts_S1x2048x128_S2048x128) bitsLt_bf16_f32) transposes_S2048x128_p1_0_S128x2048)
    (constant S512x2048 .f32 0x00000000#32)

/-- The masked, scaled scores. -/
def scoresV (i : grid0.Coords) (x0 : Vec Ideal S1x512x128 .f32) (x1 : Vec Ideal S1x2048x128 .f32) : FVec Ideal S512x2048 .f32 :=
  select (maskV i) (mulf (dotQK x0 x1) (broadcast S512x2048 (Named.named κ "inv_sqrt_d" 0x3DB504F3#32 : Ideal .f32)))
    (broadcast S512x2048 (Scalar.ofBits .f32 0x00000000#32 : Ideal .f32))

/-- Each row's maximum, from -∞. -/
def rowMaxV (s : FVec Ideal S512x2048 .f32) : FVec Ideal S512 .f32 :=
  maximumf (broadcast S512 (Scalar.ofBits .f32 0xFF800000#32 : Ideal .f32))
    (multiReduction .maximumf [1] S512 s 0xFF800000#32 reduces_S512x2048_S512 (.inl rfl) rfl)

/-- A vector of row values spread along the rows (a keepdims column broadcast over the columns). -/
def columnV (z : FVec Ideal S512 .f32) : FVec Ideal S512x2048 .f32 :=
  broadcastTo S512x2048 (shapeCast S512x1 z shapeCasts_S512_S512x1) broadcasts_S512x1_S512x2048

/-- The matrix shifted by its row maxima and exponentiated. -/
def expV (s : FVec Ideal S512x2048 .f32) : FVec Ideal S512x2048 .f32 := exp (subf s (columnV (rowMaxV s)))

/-- The row-wise softmax of a matrix. -/
def softV (s : FVec Ideal S512x2048 .f32) : FVec Ideal S512x2048 .f32 :=
  divf (expV s) (columnV (multiReduction .add [1] S512 (expV s) 0x00000000#32 reduces_S512x2048_S512 (.inl rfl) rfl))

/-- The weights times the value slab, as a [1,512,128] block. -/
def outV (w : FVec Ideal S512x2048 .f32) (x2 : Vec Ideal S1x2048x128 .f32) : FVec Ideal S1x512x128 .f32 :=
  shapeCast S1x512x128
    (matmul dot_S512x2048_S2048x128_S512x128_1_0_0_1_n_n none (truncf .bf16 w bitsLt_bf16_f32)
      (truncf .bf16 (shapeCast S2048x128 x2 shapeCasts_S1x2048x128_S2048x128) bitsLt_bf16_f32) (constant S512x128 .f32 0x00000000#32))
    shapeCasts_S512x128_S1x512x128

/-- The body's stored value is the three stages composed. -/
theorem pay_split (i : grid0.Coords) (x0 : Vec Ideal S1x512x128 .f32) (x1 x2 : Vec Ideal S1x2048x128 .f32) :
    k0_pay1 (F := Ideal) i x0 x1 x2 = outV (softV (scoresV i x0 x1)) x2 := rfl

/-! ## Layout and reductions at an index -/

/-- A vector of row values cast to a column and spread along the rows reads, at (r, j), entry r. -/
theorem columnV_apply (z : FVec Ideal S512 .f32) (r : Fin 512) (j : Fin 2048) : columnV z (ix2 r j) = z (ix1 r) := by
  unfold columnV
  refine (broadcastTo_apply _ broadcasts_S512x1_S512x2048 (ix2 r j) (ix2 r (0 : Fin 1)) fun ax => ?_).trans ?_
  · match ax with
    | ⟨0, _⟩ => show r.val = if (512 : Nat) = 1 then 0 else r.val; rw [if_neg (by decide)]
    | ⟨1, _⟩ => show 0 = if (1 : Nat) = 1 then 0 else j.val; rw [if_pos rfl]
  · exact shapeCast_apply z shapeCasts_S512_S512x1 _ _ (by
      rw [Shape.rowMajor_val_one, Shape.rowMajor_val_two]
      show r.val = r.val * 1 + 0
      omega)

/-- Row r with the column coordinate k put back is (r, k). -/
theorem lift_row (h : S512x2048.Reduces [1] S512) (r : Fin 512) (k : Fin (S512x2048.size 1)) :
    h.lift (ix1 r) k = ix2 r (⟨k.val, k.isLt⟩ : Fin 2048) := by
  funext c; apply Fin.ext
  fin_cases c <;> rfl

/-- A fold of `max` over `Fin n` re-indexed along an equality of the bounds. -/
theorem fold_max_congr {n m : Nat} (hnm : n = m) (b : EReal) (f : Fin n → EReal) (g : Fin m → EReal)
    (hfg : ∀ k : Fin n, f k = g ⟨k.val, hnm ▸ k.isLt⟩) :
    (Finset.univ : Finset (Fin n)).fold max b f = (Finset.univ : Finset (Fin m)).fold max b g := by
  subst hnm
  exact congrArg (fun f => Finset.fold max b f Finset.univ) (funext hfg)

/-- Each row's maximum is the maximum of that row's entries, from -∞. -/
theorem rowMaxV_apply (s : FVec Ideal S512x2048 .f32) (r : Fin 512) : rowMaxV s (ix1 r) = rowMax (fun j => s (ix2 r j)) := by
  unfold rowMax rowMaxV
  rw [maximumf_apply]
  refine congrArg₂ max rfl ?_
  refine (Ideal.multiReduction_maximumf_single s 0xFF800000#32 reduces_S512x2048_S512 (.inl rfl) rfl (ix1 r)).trans ?_
  exact fold_max_congr rfl _ _ _ fun k => congrArg s (lift_row reduces_S512x2048_S512 r k)

/-- A row's sum is the sum of that row's entries. -/
theorem rowSum_apply (s : FVec Ideal S512x2048 .f32) (r : Fin 512) :
    multiReduction .add [1] S512 s 0x00000000#32 reduces_S512x2048_S512 (.inl rfl) rfl (ix1 r) = ∑ j : Fin 2048, s (ix2 r j) := by
  refine (Ideal.multiReduction_add_single s 0x00000000#32 reduces_S512x2048_S512 (.inl rfl) rfl (ix1 r)).trans ?_
  exact Finset.sum_congr rfl fun k _ => congrArg s (lift_row reduces_S512x2048_S512 r k)

/-! ## The softmax stage -/

/-- The exponential of a vector at an index. -/
theorem exp_at {s : Shape} {φ : FTy} (a : FVec Ideal s φ) (i : s.Idx) : exp a i = Ideal.exp (a i) := rfl

theorem expV_apply (s : FVec Ideal S512x2048 .f32) (r : Fin 512) (j : Fin 2048) :
    expV s (ix2 r j) = rowExp (fun j' => s (ix2 r j')) j := by
  unfold expV rowExp
  rw [exp_at, subf_apply, columnV_apply, rowMaxV_apply]

theorem softV_apply (s : FVec Ideal S512x2048 .f32) (r : Fin 512) (j : Fin 2048) :
    softV s (ix2 r j) = rowWeight (fun j' => s (ix2 r j')) j := by
  unfold softV rowWeight
  rw [divf_apply, columnV_apply, rowSum_apply, expV_apply]
  exact congrArg (Ideal.div _) (Finset.sum_congr rfl fun j' _ => expV_apply s r j')

/-! ## The scores stage -/

/-- The signed comparison of the words of two small naturals is their comparison. -/
theorem mask_bit (qi r j : Nat) (hq : qi < 4) (hr : r < 512) (hj : j < 2048) :
    IntOp.cmpi .sge (IntOp.addi (Scalar.muli (BitVec.ofNat 32 qi) 512#32) (BitVec.ofNat 32 r)) (BitVec.ofNat 32 j)
      = if j ≤ qi * 512 + r then 1#1 else 0#1 := by
  have hX : (IntOp.addi (Scalar.muli (BitVec.ofNat 32 qi) 512#32) (BitVec.ofNat 32 r)).toNat = qi * 512 + r := by
    simp only [IntOp.addi, Scalar.muli, IntOp.muli, BitVec.toNat_add, BitVec.toNat_mul, BitVec.toNat_ofNat]
    omega
  have hY : (BitVec.ofNat 32 j).toNat = j := by
    simp only [BitVec.toNat_ofNat]
    omega
  have hXi : (IntOp.addi (Scalar.muli (BitVec.ofNat 32 qi) 512#32) (BitVec.ofNat 32 r)).toInt = ((qi * 512 + r : Nat) : Int) := by
    rw [BitVec.toInt_eq_toNat_of_lt (by rw [hX]; omega), hX]
  have hYi : (BitVec.ofNat 32 j).toInt = ((j : Nat) : Int) := by
    rw [BitVec.toInt_eq_toNat_of_lt (by rw [hY]; omega), hY]
  by_cases h : j ≤ qi * 512 + r
  · rw [if_pos h]
    exact IntOp.cmpi_sge.mpr (by rw [hXi, hYi]; exact_mod_cast h)
  · rw [if_neg h]
    refine eq_zero_of_ne_one fun hh => h ?_
    have := IntOp.cmpi_sge.mp hh
    rw [hXi, hYi] at this
    exact_mod_cast this

theorem maskV_apply (i : grid0.Coords) (r : Fin 512) (j : Fin 2048) :
    maskV i (ix2 r j) = if j.val ≤ (i 1).val * 512 + r.val then 1#1 else 0#1 := by
  show IntOp.cmpi .sge (IntOp.addi (Scalar.muli (BitVec.ofNat 32 (i 1).val) 512#32)
      (iota .tc S512x2048 32 [0] iota_S512x2048_d0_w32 (ix2 r j))) (iota .tc S512x2048 32 [1] iota_S512x2048_d1_w32 (ix2 r j)) = _
  rw [iota_single_apply, iota_single_apply]
  exact mask_bit (i 1).val r.val j.val (i 1).isLt r.isLt j.isLt

/-- The operand indices of the product at an output index and a contraction index: the kept coordinates. -/
theorem qk_lhs0 (i : S512x2048.Idx) (q : dot_S512x128_S128x2048_S512x2048_1_0_0_1_n_n.contr.Idx) : (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem qk_lhs1 (i : S512x2048.Idx) (q : dot_S512x128_S128x2048_S512x2048_1_0_0_1_n_n.contr.Idx) : (dot_S512x128_S128x2048_S512x2048_1_0_0_1_n_n.lhsIdx i q 1).val = (q ⟨0, by decide⟩).val :=
  dot_S512x128_S128x2048_S512x2048_1_0_0_1_n_n.lhsIdx_val_of_single rfl i q
theorem qk_rhs0 (i : S512x2048.Idx) (q : dot_S512x128_S128x2048_S512x2048_1_0_0_1_n_n.contr.Idx) : (dot_S512x128_S128x2048_S512x2048_1_0_0_1_n_n.rhsIdx i q 0).val = (q ⟨0, by decide⟩).val :=
  dot_S512x128_S128x2048_S512x2048_1_0_0_1_n_n.rhsIdx_val_of_single rfl i q
theorem qk_rhs1 (i : S512x2048.Idx) (q : dot_S512x128_S128x2048_S512x2048_1_0_0_1_n_n.contr.Idx) : (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The matrix of inner products at (r, j): the sum over the feature axis. -/
theorem dotQK_apply (x0 : Vec Ideal S1x512x128 .f32) (x1 : Vec Ideal S1x2048x128 .f32) (r : Fin 512) (j : Fin 2048) :
    dotQK x0 x1 (ix2 r j) = ∑ e : Fin 128, x0 (ix3 (0 : Fin 1) r e) * x1 (ix3 (0 : Fin 1) j e) := by
  unfold dotQK
  simp only [matmul]
  refine (Ideal.matmul_constant_zero_apply dot_S512x128_S128x2048_S512x2048_1_0_0_1_n_n none _ _ (ix2 r j)).trans ?_
  rw [← Equiv.sum_comp (contrEquiv1 dot_S512x128_S128x2048_S512x2048_1_0_0_1_n_n 128 rfl rfl).symm]
  refine Finset.sum_congr rfl fun e _ => ?_
  have hk := contrEquiv1_symm_val dot_S512x128_S128x2048_S512x2048_1_0_0_1_n_n 128 rfl rfl e
  have el : dot_S512x128_S128x2048_S512x2048_1_0_0_1_n_n.lhsIdx (ix2 r j) ((contrEquiv1 dot_S512x128_S128x2048_S512x2048_1_0_0_1_n_n 128 rfl rfl).symm e) = ix2 r e :=
    funext fun a => Fin.ext (by
      match a with
      | ⟨0, _⟩ => exact qk_lhs0 _ _
      | ⟨1, _⟩ => exact (qk_lhs1 _ _).trans hk)
  have er : dot_S512x128_S128x2048_S512x2048_1_0_0_1_n_n.rhsIdx (ix2 r j) ((contrEquiv1 dot_S512x128_S128x2048_S512x2048_1_0_0_1_n_n 128 rfl rfl).symm e) = ix2 e j :=
    funext fun a => Fin.ext (by
      match a with
      | ⟨0, _⟩ => exact (qk_rhs0 _ _).trans hk
      | ⟨1, _⟩ => exact qk_rhs1 _ _)
  rw [el, er]
  refine congrArg₂ (· * ·) ?_ ?_
  · exact shapeCast_1ab_ab_apply x0 shapeCasts_S1x512x128_S512x128 r e
  · exact (transpose_ix2_apply _ transposes_S2048x128_p1_0_S128x2048 e j).trans
      (shapeCast_1ab_ab_apply x1 shapeCasts_S1x2048x128_S2048x128 j e)

/-- The named reciprocal denotes 1/D. -/
theorem named_eq : (Named.named κ "inv_sqrt_d" 0x3DB504F3#32 : Ideal .f32) = invD :=
  IdealRules.named_const.ideal_named_scalar _ _ _ _ rfl

/-- The row of scores the body computes for local row `r` at a grid point whose second coordinate is `qi`. -/
def blockScore (qi : Nat) (x0 : Vec Ideal S1x512x128 .f32) (x1 : Vec Ideal S1x2048x128 .f32) (r : Fin 512) (j : Fin 2048) : EReal :=
  if j.val ≤ qi * 512 + r.val then (∑ e : Fin 128, x0 (ix3 (0 : Fin 1) r e) * x1 (ix3 (0 : Fin 1) j e)) * invD else zeroW

theorem scoresV_apply (i : grid0.Coords) (x0 : Vec Ideal S1x512x128 .f32) (x1 : Vec Ideal S1x2048x128 .f32) (r : Fin 512) (j : Fin 2048) :
    scoresV i x0 x1 (ix2 r j) = blockScore (i 1).val x0 x1 r j := by
  unfold scoresV blockScore
  rw [select_apply, mulf_apply, broadcast_apply, broadcast_apply, maskV_apply, dotQK_apply, named_eq]
  by_cases h : j.val ≤ (i 1).val * 512 + r.val
  · rw [if_pos h, if_pos h]; exact select_one _ _
  · rw [if_neg h, if_neg h]; exact select_zero _ _

/-! ## The product with the values -/

/-- The operand indices of the product at an output index and a contraction index: the kept coordinates. -/
theorem wv_lhs0 (i : S512x128.Idx) (q : dot_S512x2048_S2048x128_S512x128_1_0_0_1_n_n.contr.Idx) : (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem wv_lhs1 (i : S512x128.Idx) (q : dot_S512x2048_S2048x128_S512x128_1_0_0_1_n_n.contr.Idx) : (dot_S512x2048_S2048x128_S512x128_1_0_0_1_n_n.lhsIdx i q 1).val = (q ⟨0, by decide⟩).val :=
  dot_S512x2048_S2048x128_S512x128_1_0_0_1_n_n.lhsIdx_val_of_single rfl i q
theorem wv_rhs0 (i : S512x128.Idx) (q : dot_S512x2048_S2048x128_S512x128_1_0_0_1_n_n.contr.Idx) : (dot_S512x2048_S2048x128_S512x128_1_0_0_1_n_n.rhsIdx i q 0).val = (q ⟨0, by decide⟩).val :=
  dot_S512x2048_S2048x128_S512x128_1_0_0_1_n_n.rhsIdx_val_of_single rfl i q
theorem wv_rhs1 (i : S512x128.Idx) (q : dot_S512x2048_S2048x128_S512x128_1_0_0_1_n_n.contr.Idx) : (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

theorem outV_apply (w : FVec Ideal S512x2048 .f32) (x2 : Vec Ideal S1x2048x128 .f32) (r : Fin 512) (d : Fin 128) :
    outV w x2 (ix3 (0 : Fin 1) r d) = ∑ j : Fin 2048, w (ix2 r j) * x2 (ix3 (0 : Fin 1) j d) := by
  unfold outV
  refine (shapeCast_ab_1ab_apply _ shapeCasts_S512x128_S1x512x128 (0 : Fin 1) r d).trans ?_
  simp only [matmul]
  refine (Ideal.matmul_constant_zero_apply dot_S512x2048_S2048x128_S512x128_1_0_0_1_n_n none _ _ (ix2 r d)).trans ?_
  rw [← Equiv.sum_comp (contrEquiv1 dot_S512x2048_S2048x128_S512x128_1_0_0_1_n_n 2048 rfl rfl).symm]
  refine Finset.sum_congr rfl fun j _ => ?_
  have hk := contrEquiv1_symm_val dot_S512x2048_S2048x128_S512x128_1_0_0_1_n_n 2048 rfl rfl j
  have el : dot_S512x2048_S2048x128_S512x128_1_0_0_1_n_n.lhsIdx (ix2 r d) ((contrEquiv1 dot_S512x2048_S2048x128_S512x128_1_0_0_1_n_n 2048 rfl rfl).symm j) = ix2 r j :=
    funext fun a => Fin.ext (by
      match a with
      | ⟨0, _⟩ => exact wv_lhs0 _ _
      | ⟨1, _⟩ => exact (wv_lhs1 _ _).trans hk)
  have er : dot_S512x2048_S2048x128_S512x128_1_0_0_1_n_n.rhsIdx (ix2 r d) ((contrEquiv1 dot_S512x2048_S2048x128_S512x128_1_0_0_1_n_n 2048 rfl rfl).symm j) = ix2 j d :=
    funext fun a => Fin.ext (by
      match a with
      | ⟨0, _⟩ => exact (wv_rhs0 _ _).trans hk
      | ⟨1, _⟩ => exact wv_rhs1 _ _)
  rw [el, er]
  refine congrArg₂ (· * ·) rfl ?_
  exact shapeCast_1ab_ab_apply x2 shapeCasts_S1x2048x128_S2048x128 j d

/-! ## The body's stored value -/

/-- The body's stored value at local row `r`, feature `d`. -/
theorem pay_apply (i : grid0.Coords) (x0 : Vec Ideal S1x512x128 .f32) (x1 x2 : Vec Ideal S1x2048x128 .f32) (r : Fin 512) (d : Fin 128) :
    k0_pay1 (F := Ideal) i x0 x1 x2 (ix3 (0 : Fin 1) r d)
      = rowOut (blockScore (i 1).val x0 x1 r) (fun j => x2 (ix3 (0 : Fin 1) j d)) := by
  rw [pay_split, outV_apply]
  unfold rowOut
  refine Finset.sum_congr rfl fun j _ => ?_
  rw [softV_apply]
  exact congrArg (fun s => rowWeight s j * x2 (ix3 (0 : Fin 1) j d)) (funext fun j' => scoresV_apply i x0 x1 r j')

end Cert.KernelIdeal.Block

end
-- ==== Proof.ArrValue.lean ====
/-
  From the blocks to the array.

  Grid point t = (b, qi) writes back the [1,512,128] block at block index (b, qi, 0) of the result array; the query block it
  stages is the block at the same index of the queries, and the key and value slabs are the blocks (b, 0, 0) of the keys and
  values.  So what point t writes back is block t of the attention function of the three argument arrays, the 64 blocks
  cover the result array, and after the run the result array is that function.
-/
import proofs.«145812_j34016140984994_1_alg».proof.Proof.KernelIdealFrame
import proofs.«145812_j34016140984994_1_alg».proof.Proof.BlockPayload
import proofs.«145812_j34016140984994_1_alg».proof.Proof.Spec
import Idealize.ShloMosaic.Lib.Pipeline.Value

noncomputable section

namespace Cert.KernelIdeal.ArrValue

open Cert.KernelIdeal Cert.KernelIdeal.Gen Cert.KernelIdeal.GenP Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The index maps, decided over the grid: the query window moves with the result window, the key and value windows
    follow its batch only, the grid's second coordinate is the result's row-block index, and the result's block
    indices stay in their ranges. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ (grid0.coords t 1).val = win0_3.index t (1 : Fin 3)
    ∧ win0_3.index t (0 : Fin 3) < 16
    ∧ win0_3.index t (1 : Fin 3) < 4
    ∧ win0_3.index t (2 : Fin 3) = 0 :=
  (by decide +kernel : ∀ t : Fin grid0.N, _)

/-- A block of queries that is rows qi·512 … of batch b, with the key and value slabs of batch b, gives at local row r
    the attention function's row R = qi·512 + r of batch b. -/
theorem point_eq (i : grid0.Coords) (x0 : Vec Ideal S1x512x128 .f32) (x1 x2 : Vec Ideal S1x2048x128 .f32)
    (q k v : A3.Idx → EReal) (b : Fin 16) (r : Fin 512) (d : Fin 128) (R : Fin 2048)
    (hR : R.val = (i 1).val * 512 + r.val)
    (h0 : ∀ e : Fin 128, x0 (ix3 (0 : Fin 1) r e) = q (ix3 b R e))
    (h1 : ∀ (j : Fin 2048) (e : Fin 128), x1 (ix3 (0 : Fin 1) j e) = k (ix3 b j e))
    (h2 : ∀ j : Fin 2048, x2 (ix3 (0 : Fin 1) j d) = v (ix3 b j d)) :
    k0_pay1 (F := Ideal) i x0 x1 x2 (ix3 (0 : Fin 1) r d) = attnAt q k v b R d := by
  rw [Block.pay_apply]
  unfold attnAt
  congr 1
  · funext j
    unfold Block.blockScore score qk
    rw [hR]
    simp only [h0, h1]
  · funext j; exact h2 j

/-- The query block at point t, row r: row (index 1)·512 + r of batch (index 0) of the queries. -/
theorem q_blk (c : Dev nD) (t : Fin cfg0.N) (r : Fin 512) (e : Fin 128) (b : Fin 16) (R : Fin 2048)
    (hb : b.val = win0_3.index t (0 : Fin 3)) (hR : R.val = win0_3.index t (1 : Fin 3) * 512 + r.val) :
    iblk m c 0 t (ix3 (0 : Fin 1) r e) = V m c main_arg0 (ix3 b R e) := by
  obtain ⟨e0, e1, e2, -⟩ := idx_facts t
  show V m c main_arg0 (((cfg0.win 0).blk t).view.emb (ix3 (0 : Fin 1) r e)) = V m c main_arg0 (ix3 b R e)
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 512 + 1 * r.val = R.val; rw [e1, hR]; omega
  | ⟨2, _⟩ => show win0_0.index t (2 : Fin 3) * 128 + 1 * e.val = e.val; rw [e2]; omega

/-- The key slab at point t: batch (index 0) of the keys. -/
theorem k_blk (c : Dev nD) (t : Fin cfg0.N) (j : Fin 2048) (e : Fin 128) (b : Fin 16)
    (hb : b.val = win0_3.index t (0 : Fin 3)) :
    iblk m c 1 t (ix3 (0 : Fin 1) j e) = V m c main_arg1 (ix3 b j e) := by
  obtain ⟨-, -, -, e0, e1, e2, -⟩ := idx_facts t
  show V m c main_arg1 (((cfg0.win 1).blk t).view.emb (ix3 (0 : Fin 1) j e)) = V m c main_arg1 (ix3 b j e)
  congr 1
  funext a
  apply Fin.ext
  match a with
  | ⟨0, _⟩ => show win0_1.index t (0 : Fin 3) * 1 + 1 * (0 : Fin 1).val = b.val; rw [e0, hb]; simp
  | ⟨1, _⟩ => show win0_1.index t (1 : Fin 3) * 2048 + 1 * j.val = j.val; rw [e1]; omega
  | ⟨2, _⟩ => show win0_1.index t (2 : Fin 3) * 128 + 1 * e.val = e.val; rw [e2]; omega

/-- The value slab at point t: batch (index 0) of the values. -/
theorem v_blk (c : Dev nD) (t : Fin cfg0.N) (j : Fin 2048) (e : Fin 128) (b : Fin 16)
    (hb : b.val = win0_3.index t (0 : Fin 3)) :
    iblk m c 2 t (ix3 (0 : Fin 1) j e) = V m c main_arg2 (ix3 b j e) := by
  obtain ⟨-, -, -, -, -, -, e0, e1, e2, -⟩ := idx_facts t
  show V m c main_arg2 (((cfg0.win 2).blk t).view.emb (ix3 (0 : Fin 1) j e)) = V m c main_arg2 (ix3 b j e)
  congr 1
  funext a
  apply Fin.ext
  match a with
  | ⟨0, _⟩ => show win0_2.index t (0 : Fin 3) * 1 + 1 * (0 : Fin 1).val = b.val; rw [e0, hb]; simp
  | ⟨1, _⟩ => show win0_2.index t (1 : Fin 3) * 2048 + 1 * j.val = j.val; rw [e1]; omega
  | ⟨2, _⟩ => show win0_2.index t (2 : Fin 3) * 128 + 1 * e.val = e.val; rw [e2]; omega

/-- Where the result block's entry (r, d) at point t sits in the result array. -/
theorem out_emb (t : Fin cfg0.N) (r : Fin 512) (d : Fin 128) (b : Fin 16) (R : Fin 2048)
    (hb : b.val = win0_3.index t (0 : Fin 3)) (hR : R.val = win0_3.index t (1 : Fin 3) * 512 + r.val) :
    ((cfg0.win 3).blk t).view.emb (ix3 (0 : Fin 1) r d) = (ix3 b R d : S16x2048x128.Idx) := by
  have e2 : win0_3.index t (2 : Fin 3) = 0 := (idx_facts t).2.2.2.2.2.2.2.2.2.2.2.2
  funext a
  apply Fin.ext
  match a with
  | ⟨0, _⟩ => show win0_3.index t (0 : Fin 3) * 1 + 1 * (0 : Fin 1).val = b.val; rw [hb]; simp
  | ⟨1, _⟩ => show win0_3.index t (1 : Fin 3) * 512 + 1 * r.val = R.val; rw [hR]; omega
  | ⟨2, _⟩ => show win0_3.index t (2 : Fin 3) * 128 + 1 * d.val = d.val; rw [e2]; omega

/-- What point t writes back is block t of the attention function of the argument arrays as the region finds them. -/
theorem flushed_eq (c : Dev nD) (t : Fin cfg0.N) :
    (dats m 0 c).flushed 3 t = ((cfg0.win 3).blk t).view.read (Elt Ideal) (attn (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S1x512x128) hz, View.ld_unit_zero (S := S1x2048x128) hz]
  funext y
  obtain ⟨z, r, d, rfl⟩ : ∃ (z : Fin 1) (r : Fin 512) (d : Fin 128), y = ix3 z r d := ⟨y 0, y 1, y 2, eq_ix3 y⟩
  obtain rfl : z = 0 := Subsingleton.elim _ _
  have f := idx_facts t
  have hq : (grid0.coords t 1).val = win0_3.index t (1 : Fin 3) := f.2.2.2.2.2.2.2.2.2.1
  have hb : win0_3.index t (0 : Fin 3) < 16 := f.2.2.2.2.2.2.2.2.2.2.1
  have hqi : win0_3.index t (1 : Fin 3) < 4 := f.2.2.2.2.2.2.2.2.2.2.2.1
  have hr : r.val < 512 := r.isLt
  show k0_pay1 (grid0.coords t) (iblk m c 0 t) (iblk m c 1 t) (iblk m c 2 t) (ix3 (0 : Fin 1) r d)
    = attn (V m c main_arg0) (V m c main_arg1) (V m c main_arg2) (((cfg0.win 3).blk t).view.emb (ix3 (0 : Fin 1) r d))
  rw [out_emb t r d ⟨win0_3.index t (0 : Fin 3), hb⟩ ⟨win0_3.index t (1 : Fin 3) * 512 + r.val, by omega⟩ rfl rfl, attn_ix3]
  exact point_eq _ _ _ _ _ _ _ _ r d _ (by show _ = (grid0.coords t 1).val * 512 + r.val; rw [hq])
    (fun e => q_blk m c t r e _ _ rfl rfl) (fun j e => k_blk m c t j e _ rfl) (fun j => v_blk m c t j d _ rfl)

/-- An index of the result array is in point t's block iff each coordinate is in the block's range on its axis. -/
theorem mem_blk (t : Fin cfg0.N) (i : S16x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v0).slice (win0_3.rect t)).set ↔ _
  rw [View.set_slice_whole, Rect.mem_set_unit]
  exact Iff.rfl

/-- Every block index (b, qi, 0) of the result is some point's. -/
theorem idx_onto : ∀ (b : Fin 16) (qi : Fin 4), ∃ t : Fin cfg0.N, win0_3.index t = ![b.val, qi.val, 0] :=
  (by decide +kernel : ∀ (b : Fin 16) (qi : Fin 4), ∃ t : Fin grid0.N, win0_3.index t = ![b.val, qi.val, 0])

/-- The 64 blocks cover the result array: entry (b, R, d) is in the block of index (b, R / 512, 0). -/
theorem cover (i : S16x2048x128.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- So the result array ends at the attention function of the argument arrays as the region finds them. -/
theorem final (c : Dev nD) :
    (dats m 0 c).arrAt 3 cfg0.N = attn (V m c main_arg0) (V m c main_arg1) (V m c main_arg2) :=
  (dats m 0 c).arrAt_eq_of_cover 3 (attn (V m c main_arg0) (V m c main_arg1) (V m c main_arg2))
    (fun t _ => flushed_eq m c t) cover

/-- The kernel's run: the result array ends at the attention function of the argument arrays, the arguments unchanged. -/
theorem run : θ_run defs (onTc (τ := τ) (main (F := Ideal))) ⟨m, fun _ => 0, ρ⟩ fun r => ∀ c : Dev nD,
      r.2.mem ((c : Thread nD τ).loc main_v0) = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrValue

end
-- ==== Proof.lean ====
/- The proof of the certificate's claim for a causal-masked attention kernel against its jnp reference.

   Both programs compute, for every batch b, query row R and feature d,
     out(b,R,d) = ∑ⱼ w(b,R,j) · v(b,j,d),   w(b,R,·) = softmax of the row of scores  s(b,R,j) = (q(b,R,·)·k(b,j,·)) / D  for j ≤ R, 0 for j > R
   (Proof/Spec.lean).  The kernel tiles the query rows in blocks of 512 over a 16 × 4 grid and multiplies by a named
   reciprocal 1/D where the reference divides by D; on the extended reals a quotient by a nonzero real is the product with its
   reciprocal, so the two rows of scores are the same row and everything downstream of them is the same function.
   The three frames: the kernel's two are the frame certificates of the word-level and the idealized program, the
   reference's is its run with the result dropped.  The one ledger entry of the idealization is the named reciprocal. -/
import proofs.«145812_j34016140984994_1_alg».proof.Defs
import proofs.«145812_j34016140984994_1_alg».proof.Proof.Gen.Kernel
import proofs.«145812_j34016140984994_1_alg».proof.Proof.Gen.Kernel.Skeleton
import proofs.«145812_j34016140984994_1_alg».proof.Proof.Gen.Kernel.Launch
import proofs.«145812_j34016140984994_1_alg».proof.Proof.Gen.Kernel.Points
import proofs.«145812_j34016140984994_1_alg».proof.Proof.KernelFrame
import proofs.«145812_j34016140984994_1_alg».proof.Proof.Gen.KernelIdeal
import proofs.«145812_j34016140984994_1_alg».proof.Proof.Gen.KernelIdeal.Skeleton
import proofs.«145812_j34016140984994_1_alg».proof.Proof.Gen.KernelIdeal.Launch
import proofs.«145812_j34016140984994_1_alg».proof.Proof.Gen.KernelIdeal.Points
import proofs.«145812_j34016140984994_1_alg».proof.Proof.KernelIdealFrame
import proofs.«145812_j34016140984994_1_alg».proof.Proof.Gen.ReferenceIdeal
import proofs.«145812_j34016140984994_1_alg».proof.Proof.RefRun
import proofs.«145812_j34016140984994_1_alg».proof.Proof.RefRead
import proofs.«145812_j34016140984994_1_alg».proof.Proof.Gen.Pre_finite_inputs
import proofs.«145812_j34016140984994_1_alg».proof.Proof.Spec
import proofs.«145812_j34016140984994_1_alg».proof.Proof.RefValue
import proofs.«145812_j34016140984994_1_alg».proof.Proof.ArrValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization's one rewrite: the scale literal is named, and the table gives the name the value 1/D. -/
theorem preserves : Cert.preserves_Kernel_KernelIdeal :=
  IdealRules.named_const.statement Cert.KernelIdeal.κ "inv_sqrt_d" .f32 0x3DB504F3#32 ((1048576 / 11863283 : ℝ) : EReal) rfl

/-- Both runs end with the result array at the attention function of arguments that agree. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
